-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S256x10000 : Shape := ⟨2, ![256, 10000]⟩
abbrev S256x128 : Shape := ⟨2, ![256, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S256x10000, .f32⟩
  | .local _ .vmem, ⟨3, _⟩ => ⟨S256x10000, .f32⟩
  | .local _ .vmem, ⟨4, _⟩ => ⟨S256x128, .f32⟩
  | .local _ .vmem, ⟨5, _⟩ => ⟨S256x128, .f32⟩
  | .local _ .vmem, ⟨6, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S256x10000_S256x10000_0_0 : ∀ a, (![0, 0] : Fin 2 → Nat) a + S256x10000.size a ≤ S256x10000.size a
  h_S256x10000 : 0 < S256x10000.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  dot_S10000x128_S128x128_S10000x128_1_0_0_1_n_n_wf : DotDims.WF S10000x128 S128x128 S10000x128 [1] [0] [0] [1] [] []
  dot_S256x10000_S10000x128_S256x128_1_0_0_1_n_n_wf : DotDims.WF S256x10000 S10000x128 S256x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S256x10000.size a < S10000x10000.size a
  hwx0_2 : ∀ i : grid0.Coords, EltTy.bits .f32 = 32 ∨ (Rect.unit (s := S10000x10000) (fun a => cc0_transform_2 i a * S256x10000.size a) (fun a => (Pipeline.Clip.of (cc0_transform_2 i a) (S256x10000.size a) (S10000x10000.size a)).extent (S256x10000.size a)) fun a => Pipeline.Clip.inb (Pipeline.Clip.ok_of (hstart0_2 i a))).WholeWords (EltTy.packing .f32)
  hwxs0_2 : ∀ i : grid0.Coords, EltTy.bits .f32 = 32 ∨ (Rect.unit (s := S256x10000) (fun _ => 0) (fun a => (Pipeline.Clip.of (cc0_transform_2 i a) (S256x10000.size a) (S10000x10000.size a)).extent (S256x10000.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S256x128.size a < S10000x128.size a
  hwx0_3 : ∀ i : grid0.Coords, EltTy.bits .f32 = 32 ∨ (Rect.unit (s := S10000x128) (fun a => cc0_transform_3 i a * S256x128.size a) (fun a => (Pipeline.Clip.of (cc0_transform_3 i a) (S256x128.size a) (S10000x128.size a)).extent (S256x128.size a)) fun a => Pipeline.Clip.inb (Pipeline.Clip.ok_of (hstart0_3 i a))).WholeWords (EltTy.packing .f32)
  hwxs0_3 : ∀ i : grid0.Coords, EltTy.bits .f32 = 32 ∨ (Rect.unit (s := S256x128) (fun _ => 0) (fun a => (Pipeline.Clip.of (cc0_transform_3 i a) (S256x128.size a) (S10000x128.size a)).extent (S256x128.size a)) fun a => (Nat.zero_add _).trans_le (Pipeline.Clip.extent_le (Pipeline.Clip.ok_of (hstart0_3 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S256x10000_S10000x128_S256x128_1_0_0_1_n_n : DotDims S256x10000 S10000x128 S256x128 where
  lhsContracting := [1]
  rhsContracting := [0]
  lhsNonContracting := [0]
  rhsNonContracting := [1]
  lhsBatch := []
  rhsBatch := []
  wf := dot_S256x10000_S10000x128_S256x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S256x10000.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0) S256x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Bits.BodyRun.lean ====
/-
  The kernel body on whole buffers, in its two control cases. The body's one branch holds exactly at the first
  grid point: there it loads the staged x and W, stores their matrix product into the scratch, then loads the
  staged adjacency rows and the scratch and stores their product into the result's buffer. At every later point it
  skips the first product and only reads the scratch. In each case the buffers' final contents are the body's
  stores applied to what they held, each store through a rectangle covering its whole buffer.
-/
import proofs.«141144_g2783138808134_cont_9to1_832_16_alg».proof.Proof.Gen.Kernel.Launch
import proofs.«141144_g2783138808134_cont_9to1_832_16_alg».proof.Proof.Gen.Kernel.Skeleton
import proofs.«141144_g2783138808134_cont_9to1_832_16_alg».proof.Proof.Gen.Kernel.Points
import proofs.«141144_g2783138808134_cont_9to1_832_16_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's one branch

The body computes the product x·W into its scratch only at the first grid point; its condition is a scalar
chain over the grid coordinate, which holds exactly at point 0. -/

/-- The condition of the body's `scf.if`, from the grid coordinate. -/
abbrev cond0 (i : grid0.Coords) : Prop :=
  (Scalar.cmpi .ne (Scalar.extui (Scalar.cmpi .eq (BitVec.ofNat 32 (i 0).val) 0#32)) 0#32) = 1#1

/-- It holds at the first point and at no other. -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- The body at the first point, on whole memrefs: the staged x, W and adjacency rows at their contents, the
    result's buffer and the scratch at anything. It ends with the inputs as they were, the scratch with its
    pieces written and the result's buffer with its pieces written; the pieces are what the run finds. -/
noncomputable def runFirst (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S256x10000 .f32) (harg3 : arg3.IsWhole) (arg4 : Memref sig .tc .vmem S256x128 .f32) (harg4 : arg4.IsWhole)
    (arg5 : Memref sig .tc .vmem S10000x128 .f32) (harg5 : arg5.IsWhole) (hc : cond0 i)
    (x0 : Vec F S10000x128 .f32) (x1 : Vec F S128x128 .f32) (x2 : Vec F S256x10000 .f32) :
    Σ' (L4 : List (View.Piece (Elt F) S256x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f LS)) -∗ K ⟨⟩))
          ⊢ wp frame (wpE (defs₀ (F := F)) Variants.none c none) E (cc0__gcn_kernel i arg1 harg1 arg2 harg2 arg3 harg3 arg4 harg4 arg5 harg5) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%d4, %f4, -, H4⟩, ⟨%d5, %f5, -, H5⟩, Hk⟩
    obtain rfl := harg1.eq_unread hf0; obtain rfl := harg2.eq_unread hf1; obtain rfl := harg3.eq_unread hf2
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]
    · iexists _; iexact H4
    iexists _; iexact H5

set_option maxHeartbeats 1000000 in
/-- The body at a later point, on whole memrefs: the scratch holds what the first point left (`xs`), and is
    only read; the result's buffer ends with its pieces written, everything else as it was. -/
noncomputable def runLater (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S256x10000 .f32) (harg3 : arg3.IsWhole) (arg4 : Memref sig .tc .vmem S256x128 .f32) (harg4 : arg4.IsWhole)
    (arg5 : Memref sig .tc .vmem S10000x128 .f32) (harg5 : arg5.IsWhole) (hc : ¬cond0 i)
    (x0 : Vec F S10000x128 .f32) (x1 : Vec F S128x128 .f32) (x2 : Vec F S256x10000 .f32) (xs : Vec F S10000x128 .f32) :
    { L4 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L4)
                ∗ owns (c : Thread nD τ) arg5 fullShare xs) -∗ K ⟨⟩))
          ⊢ wp frame (wpE (defs₀ (F := F)) Variants.none c none) E (cc0__gcn_kernel i arg1 harg1 arg2 harg2 arg3 harg3 arg4 harg4 arg5 harg5) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%d4, %f4, -, H4⟩, ⟨%f5, %hf5, H5⟩, Hk⟩
    obtain rfl := harg1.eq_unread hf0; obtain rfl := harg2.eq_unread hf1; obtain rfl := harg3.eq_unread hf2
    obtain rfl := harg5.eq_unread hf5
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]
    · iexists _; iexact H4
    iexists _; isplitr; · ipureintro; exact harg5.read_unread _
    iexact H5

end Cert.Kernel.Body

end
-- ==== Proof.LibWholeStore.lean ====
/-
  Reading back a buffer after a list of stores whose newest store covers the whole buffer: the newest store's value,
  whatever the buffer held before and whatever the earlier stores were. And a block loaded through a unit-stride
  rectangle of a named offset does not depend on how the offset is spelled.
-/
import Idealize.ShloMosaic.Lib.WritesUnit
import Idealize.ShloMosaic.Lib.Pipeline.Value

namespace Cert.LibWholeStore

open Idealize.ShloMosaic

variable {sig : RefSig} {κ : Kind} {sp : Space} {S : Shape} {e : EltTy} {Val : EltTy → Type}

/-- The newest piece covers the whole shape (offsets zero, the shape's own sizes): the buffer reads its payload. -/
theorem read_writes_cons_whole (v : View sig κ sp S e) (f : v.ty.Contents Val) {off : Fin S.rank → ℕ}
    (h : off = fun _ => 0) (inb : ∀ a, off a + S.size a ≤ S.size a)
    (w : (Rect.unit off S.size inb).shape.Idx → Val e) (L : List (View.Piece Val S e)) :
    v.read Val (v.writes Val f ((⟨Rect.unit off S.size inb, w⟩ : View.Piece Val S e) :: L)) = w := by
  funext y
  exact View.read_writes_cons_unit_of_mem v f inb w L y y h fun a => (Nat.zero_add _).symm

/-- A block loaded through a unit-stride rectangle, the offsets given up to an equation. -/
theorem ld_unit_congr {T : Shape} (X : T.Idx → Val e) {off off' : Fin T.rank → ℕ} {size : Fin T.rank → ℕ}
    (h : off = off') (inb : ∀ a, off a + size a ≤ T.size a) (inb' : ∀ a, off' a + size a ≤ T.size a) :
    View.ld X (Rect.unit off size inb) = View.ld X (Rect.unit off' size inb') := by
  subst h; rfl

end Cert.LibWholeStore
-- ==== Proof.LibReadCovWhole.lean ====
/-
  A load through the whole shape of a buffer after a list of stores whose NEWEST store covers the whole shape (offsets
  zero, the shape's own sizes) reads that store's value, whatever the earlier stores were: a scratch row rewritten
  whole at every step and read back whole.
-/
import Idealize.ShloMosaic.Lib.Pipeline.Value

namespace Cert.LibReadCovWhole

open Idealize.ShloMosaic

variable {S : Shape} {e : EltTy} {Val : EltTy → Type}

/-- The newest piece covers the whole shape: the covered load through the whole shape reads its payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

end Cert.LibReadCovWhole
-- ==== Proof.Bits.BodyPieces.lean ====
/-
  What the body's stores read back as. Each store covers its whole buffer, so the buffer afterwards reads the stored
  value whatever it held before; each load reads a whole buffer, so it reads the buffer's contents, and the load of
  the scratch right after its store at the first point reads the stored product.
-/
import proofs.«141144_g2783138808134_cont_9to1_832_16_alg».proof.Proof.Gen.Kernel.Launch
import proofs.«141144_g2783138808134_cont_9to1_832_16_alg».proof.Proof.Gen.Kernel.Skeleton
import proofs.«141144_g2783138808134_cont_9to1_832_16_alg».proof.Proof.Gen.Kernel.Points
import proofs.«141144_g2783138808134_cont_9to1_832_16_alg».proof.Proof.Gen.Kernel.Frame
import proofs.«141144_g2783138808134_cont_9to1_832_16_alg».proof.Proof.Bits.BodyRun
import proofs.«141144_g2783138808134_cont_9to1_832_16_alg».proof.Proof.LibWholeStore
import proofs.«141144_g2783138808134_cont_9to1_832_16_alg».proof.Proof.LibReadCovWhole
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the runs' pieces read back as

Each store of the body covers its whole buffer, so the buffer afterwards reads the stored value, whatever it
held; each load reads a whole buffer, so it reads the contents (and, of the scratch just stored at the first
point, the stored product). -/

theorem hz2 : (![0, 0] : Fin 2 → Nat) = fun _ => 0 := funext fun a => by fin_cases a <;> rfl

section
variable (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S256x10000 .f32) (harg3 : arg3.IsWhole) (arg4 : Memref sig .tc .vmem S256x128 .f32) (harg4 : arg4.IsWhole)
    (arg5 : Memref sig .tc .vmem S10000x128 .f32) (harg5 : arg5.IsWhole)
    (x0 : Vec F S10000x128 .f32) (x1 : Vec F S128x128 .f32) (x2 : Vec F S256x10000 .f32)

/-- After a later point the result's buffer reads the product of the staged adjacency rows with the scratch. -/
theorem read_later (hc : ¬cond0 i) (xs : Vec F S10000x128 .f32) (f) :
    arg4.view.read (Elt F) (arg4.view.writes (Elt F) f (runLater c i arg1 harg1 arg2 harg2 arg3 harg3 arg4 harg4 arg5 harg5 hc x0 x1 x2 xs).1)
      = k0_pay2 x2 xs := by
  unfold runLater; dsimp only
  rw [Cert.LibWholeStore.read_writes_cons_whole _ _ hz2]
  simp only [View.readAt_eq_ld, harg3.read_unread, harg5.read_unread, View.ld_unit_zero (S := S256x10000) hz2, View.ld_unit_zero (S := S10000x128) hz2]

/-- After the first point the scratch reads the product of the staged x and W. -/
theorem read_first_scratch (hc : cond0 i) (f) :
    arg5.view.read (Elt F) (arg5.view.writes (Elt F) f (runFirst c i arg1 harg1 arg2 harg2 arg3 harg3 arg4 harg4 arg5 harg5 hc x0 x1 x2).2.1)
      = k0_pay1 x0 x1 := by
  unfold runFirst; dsimp only; sl_unfold_words
  rw [Cert.LibWholeStore.read_writes_cons_whole _ _ hz2]
  simp only [View.readAt_eq_ld, harg1.read_unread, harg2.read_unread, View.ld_unit_zero (S := S10000x128) hz2, View.ld_unit_zero (S := S128x128) hz2]

/-- After the first point the result's buffer reads the product of the staged adjacency rows with that. -/
theorem read_first_out (hc : cond0 i) (f) :
    arg4.view.read (Elt F) (arg4.view.writes (Elt F) f (runFirst c i arg1 harg1 arg2 harg2 arg3 harg3 arg4 harg4 arg5 harg5 hc x0 x1 x2).1)
      = k0_pay2 x2 (k0_pay1 x0 x1) := by
  unfold runFirst; dsimp only; sl_unfold_words
  rw [Cert.LibWholeStore.read_writes_cons_whole _ _ hz2, Cert.LibReadCovWhole.readCov_cons_unit_zero _ hz2]
  simp only [View.readAt_eq_ld, harg1.read_unread, harg2.read_unread, harg3.read_unread, View.ld_unit_zero (S := S10000x128) hz2,
    View.ld_unit_zero (S := S128x128) hz2, View.ld_unit_zero (S := S256x10000) hz2]

end

end Cert.Kernel.Body

end
-- ==== Proof.Bits.BodyData.lean ====
/-
  The pipeline's proof data and the body at one grid point. x and W are staged whole and fetched once; the
  adjacency is staged 256 rows at a time, the last block overhanging the 10000 rows, so its buffer holds rows of
  adj on its first rows and nothing nameable below; the result is written back 256 rows at a time, cut the same way.
  The scratch is tracked: anything before the first point, x · W from then on.
-/
import proofs.«141144_g2783138808134_cont_9to1_832_16_alg».proof.Proof.Gen.Kernel.Launch
import proofs.«141144_g2783138808134_cont_9to1_832_16_alg».proof.Proof.Gen.Kernel.Skeleton
import proofs.«141144_g2783138808134_cont_9to1_832_16_alg».proof.Proof.Gen.Kernel.Points
import proofs.«141144_g2783138808134_cont_9to1_832_16_alg».proof.Proof.Gen.Kernel.Frame
import proofs.«141144_g2783138808134_cont_9to1_832_16_alg».proof.Proof.Bits.BodyPieces
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The proof data

After the first grid point the scratch holds the product x·W of the two whole-array input blocks, and keeps
it to the end. The adjacency window's buffer holds, at point `t`, rows 256·t … of the adjacency on its rows
inside the array and nothing nameable below them (the last block overhangs the array by 240 rows); the
result's buffer ends each point holding the product of that buffer with the scratch. -/

/-- The first grid point. -/
def t0 : Fin cfg0.N := ⟨0, by rw [show cfg0.N = 40 from N_0]; exact Nat.succ_pos _⟩

/-- The staging memrefs at point `t`, spelled as the pipeline passes them, and the scratch. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x128 .f32 := win0_3.stage (cfg0.slots t 3)
abbrev hs3 (t : Fin cfg0.N) : (ms3 t).IsWhole := hstage0_3 ((cfg0.slots t 3).cast nbuf0_3)
abbrev scM : Memref sig .tc .vmem S10000x128 .f32 := Memref.whole cc0_scratch0

/-- The class invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- x·W: what the scratch holds from the first point on. -/
def sup (c : Dev nD) : Vec F S10000x128 .f32 := k0_pay1 (iblk m c 0 t0) (iblk m c 1 t0)

/-- A filler for buffer rows nothing names. -/
def zf : Vec F S256x10000 .f32 := fun _ => Scalar.ofBits .f32 0#32

/-- The adjacency window's buffer at point `t`: its block's rows inside the array, `d` below them. -/
def adjBuf (c : Dev nD) (t : Fin cfg0.N) (d : Vec F S256x10000 .f32) : Vec F S256x10000 .f32 :=
  win0_2.fill (grid0.coords t) d (iblk m c 2 t)

/-- The invariant before position `n`: the class's before the first point, then the scratch at x·W. -/
def PhiS (c : Dev nD) : ℕ → sProp 𝕄
  | 0 => Pipeline.ΦA spec0 c
  | _ + 1 => iprop(iprop(owns (c : Thread nD τ) scM fullShare (sup m c)) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => adjBuf m c t zf
    | ⟨3, _⟩ => k0_pay2 (adjBuf m c t zf) (sup m c)
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem Phi_succ (c : Dev nD) (t : Fin cfg0.N) :
    (dats m 0 c).Φ t.succ = iprop(iprop(owns (c : Thread nD τ) scM fullShare (sup m c)) ∗ (∃ r, prngReg c r)) := rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = adjBuf m c t zf := by dsimp only [dats]
theorem after_3 (c : Dev nD) (t : Fin cfg0.N) : (dats m 0 c).after 3 t = k0_pay2 (adjBuf m c t zf) (sup m c) := by dsimp only [dats]

/-- The two whole-array inputs' buffers hold their blocks at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- The adjacency window is fetched at every point: its buffer holds the block's rows inside the array. -/
theorem before_2 (c : Dev nD) (t : Fin cfg0.N) (d) : (dats m 0 c).before 2 t d = adjBuf m c t d := by
  rw [Dat.before_fetched _ 2 t (fetch0_2 t)]
  unfold Dat.fetched Dat.blockOf adjBuf iblk; rw [A_eq]; try rfl

/-- The result's window is written back at every point: its buffer arrives holding nothing nameable. -/
theorem before_3 (c : Dev nD) (t : Fin cfg0.N) (d) : (dats m 0 c).before 3 t d = d := by
  refine Dat.before_out_reset _ 3 rfl t ?_ d
  by_cases h : t.val = 0
  · exact .inl h
  · exact .inr ⟨h, flush0_3 _⟩

/-! ## The body at a point -/

set_option maxHeartbeats 1600000 in
/-- The body at point `t`: from the invariant, the two whole inputs' buffers at their blocks, the adjacency
    buffer at its block filled out with any `d2`, and the result's buffer at anything, to the invariant of the
    next position, the inputs' buffers as they were and the result's buffer at the product of the adjacency
    buffer with x·W. At the first point the scratch is stored x·W first; later it holds it already. -/
theorem sound_core (c : Dev nD) (t : Fin cfg0.N) (d2 : Vec F S256x10000 .f32) (K : PUnit → sProp 𝕄) :
    iprop(PhiS m c t.val ∗ owns (c : Thread nD τ) (ms0 t) fullShare (iblk m c 0 t) ∗ owns (c : Thread nD τ) (ms1 t) fullShare (iblk m c 1 t)
        ∗ owns (c : Thread nD τ) (ms2 t) fullShare (adjBuf m c t d2) ∗ (∃ d, owns (c : Thread nD τ) (ms3 t) fullShare d)
        ∗ (iprop(PhiS m c (t.val + 1) ∗ owns (c : Thread nD τ) (ms0 t) fullShare (iblk m c 0 t) ∗ owns (c : Thread nD τ) (ms1 t) fullShare (iblk m c 1 t)
            ∗ owns (c : Thread nD τ) (ms2 t) fullShare (adjBuf m c t d2)
            ∗ owns (c : Thread nD τ) (ms3 t) fullShare (k0_pay2 (adjBuf m c t d2) (sup m c))) -∗ K ⟨⟩))
      ⊢ wp frame (wpE (defs₀ (F := F)) Variants.none c none) Set.univ (bodyAt0 t) K := by
  unfold bodyAt0
  by_cases hz : t.val = 0
  · obtain rfl : t = t0 := Fin.ext hz
    rw [show PhiS m c (t0 : Fin cfg0.N).val = Pipeline.ΦA spec0 c from rfl, PhiA_eq,
      show PhiS m c ((t0 : Fin cfg0.N).val + 1) = iprop(iprop(owns (c : Thread nD τ) scM fullShare (sup m c)) ∗ (∃ r, prngReg c r)) from rfl]
    iintro ⟨⟨HS, Hg⟩, H0, H1, H2, H3, Hk⟩
    iapply ((runFirst c (grid0.coords t0) _ (hs0 t0) _ (hs1 t0) _ (hs2 t0) _ (hs3 t0) scM (Memref.isWhole_whole _) ((hcond0 t0).mpr rfl)
      (iblk m c 0 t0) (iblk m c 1 t0) (adjBuf m c t0 d2)).2.2 Set.univ _)
    isplitl [H0]; · iexact H0
    isplitl [H1]; · iexact H1
    isplitl [H2]; · iexact H2
    isplitl [H3]; · iexact H3
    isplitl [HS]; · iexact HS
    iintro ⟨H0, H1, H2, ⟨%f3, H3⟩, ⟨%f5, H5⟩⟩
    iapply Hk
    isplitl [H5 Hg]
    · isplitl [H5]
      · unfold owns; iexists _; isplitr
        swap; · iexact H5
        ipureintro; exact read_first_scratch c _ _ _ _ _ _ _ _ _ _ _ _ _ _ _ _
      iexact Hg
    isplitl [H0]; · iexact H0
    isplitl [H1]; · iexact H1
    isplitl [H2]; · iexact H2
    unfold owns; iexists _; isplitr
    swap; · iexact H3
    ipureintro; exact read_first_out c _ _ _ _ _ _ _ _ _ _ _ _ _ _ _ _
  · obtain ⟨n, hn⟩ : ∃ n, t.val = n + 1 := Nat.exists_eq_succ_of_ne_zero hz
    rw [hn, show PhiS m c (n + 1) = iprop(iprop(owns (c : Thread nD τ) scM fullShare (sup m c)) ∗ (∃ r, prngReg c r)) from rfl,
      show PhiS m c (n + 1 + 1) = iprop(iprop(owns (c : Thread nD τ) scM fullShare (sup m c)) ∗ (∃ r, prngReg c r)) from rfl]
    iintro ⟨⟨HS, Hg⟩, H0, H1, H2, H3, Hk⟩
    iapply ((runLater c (grid0.coords t) _ (hs0 t) _ (hs1 t) _ (hs2 t) _ (hs3 t) scM (Memref.isWhole_whole _) (fun h => hz ((hcond0 t).mp h))
      (iblk m c 0 t) (iblk m c 1 t) (adjBuf m c t d2) (sup m c)).2 Set.univ _)
    isplitl [H0]; · iexact H0
    isplitl [H1]; · iexact H1
    isplitl [H2]; · iexact H2
    isplitl [H3]; · iexact H3
    isplitl [HS]; · iexact HS
    iintro ⟨H0, H1, H2, ⟨%f3, H3⟩, HS⟩
    iapply Hk
    isplitl [HS Hg]
    · isplitl [HS]; · iexact HS
      iexact Hg
    isplitl [H0]; · iexact H0
    isplitl [H1]; · iexact H1
    isplitl [H2]; · iexact H2
    unfold owns; iexists _; isplitr
    swap; · iexact H3
    ipureintro; exact read_later c _ _ _ _ _ _ _ _ _ _ _ _ _ _ _ _ _

end Cert.Kernel.Body

end
-- ==== Proof.Bits.BodyForget.lean ====
/-
  The body obligation when the result's window is forgotten: enough for the frame, where nothing reads what the
  body leaves in the result's buffer. The adjacency buffer comes back as it arrived: its kept rows its block, the
  rest whatever the fetch left.
-/
import proofs.«141144_g2783138808134_cont_9to1_832_16_alg».proof.Proof.Gen.Kernel.Launch
import proofs.«141144_g2783138808134_cont_9to1_832_16_alg».proof.Proof.Gen.Kernel.Skeleton
import proofs.«141144_g2783138808134_cont_9to1_832_16_alg».proof.Proof.Gen.Kernel.Points
import proofs.«141144_g2783138808134_cont_9to1_832_16_alg».proof.Proof.Gen.Kernel.Frame
import proofs.«141144_g2783138808134_cont_9to1_832_16_alg».proof.Proof.Bits.BodyData
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The body obligation with the result's window forgotten

For the frame alone nothing reads what the body leaves in the result's buffer: the window is handed to the body
at anything and taken back at anything. -/

/-- The windows a frame forgets: the result's. -/
abbrev fgtOut : Fin cfg0.W → Bool := fun | 0 => false | 1 => false | 2 => false | 3 => true | ⟨_ + 4, h⟩ => absurd h (Nat.not_lt.2 (Nat.le_add_left _ _))

/-- Refilling the adjacency buffer's kept rows gives the buffer back, whatever filled the rest. -/
theorem fill_cut_adjBuf (c : Dev nD) (t : Fin cfg0.N) (d : Vec F S256x10000 .f32) :
    win0_2.fill (grid0.coords t) d (win0_2.cut (grid0.coords t) (adjBuf m c t zf)) = adjBuf m c t d := by
  unfold adjBuf; rw [Window.cut_fill]

set_option maxHeartbeats 1600000 in
theorem obligation_forget (c : Dev nD) :
    BodyObligationLoose (dats (F := F) m 0 c) (defs₀ (F := F)) Variants.none () Set.univ fgtOut := fun t => by
  rw [bigSep_W0, bigSep_W0]
  simp only
  rw [show (dats m 0 c).owesAt () t.succ = (dats m 0 c).owesAt () t.castSucc from rfl, Phi_castSucc,
    show (dats m 0 c).Φ t.succ = PhiS m c (t.val + 1) from rfl]
  iintro ⟨HΦ, Ho, ⟨%d0, H0⟩, ⟨%d1, H1⟩, ⟨%d2, H2⟩, H3⟩
  rw [before_0 m c t d0, before_1 m c t d1, before_2 m c t d2]
  iapply (sound_core m c t d2 _)
  isplitl [HΦ]; · iexact HΦ
  isplitl [H0]; · iexact H0
  isplitl [H1]; · iexact H1
  isplitl [H2]; · iexact H2
  isplitl [H3]; · iexact H3
  iintro ⟨HΦ, H0, H1, H2, H3⟩
  isplitl [HΦ]; · iexact HΦ
  isplitl [Ho]; · iexact Ho
  isplitl [H0]; · rw [after_0]; iexact H0
  isplitl [H1]; · rw [after_1]; iexact H1
  isplitl [H2]
  · iexists d2; rw [after_2]
    rw [show (win0 2).fill (grid0.coords t) d2 ((win0 2).cut (grid0.coords t) (adjBuf m c t zf)) = adjBuf m c t d2 from
      fill_cut_adjBuf m c t d2]
    iexact H2
  · iexists _; iexact H3

end Cert.Kernel.Body

end
-- ==== Proof.Bits.BodyFrame.lean ====
/-
  The frame: the launch over the forgetting proof data, entered from the class invariant (the scratch at anything)
  and left with the scratch's contents forgotten again; the three argument arrays are staged inputs, which the
  pipeline never writes, so they end at their entry contents.
-/
import proofs.«141144_g2783138808134_cont_9to1_832_16_alg».proof.Proof.Gen.Kernel.Launch
import proofs.«141144_g2783138808134_cont_9to1_832_16_alg».proof.Proof.Gen.Kernel.Skeleton
import proofs.«141144_g2783138808134_cont_9to1_832_16_alg».proof.Proof.Gen.Kernel.Points
import proofs.«141144_g2783138808134_cont_9to1_832_16_alg».proof.Proof.Gen.Kernel.Frame
import proofs.«141144_g2783138808134_cont_9to1_832_16_alg».proof.Proof.Bits.BodyForget
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame

The launch: the class invariant is the tracked one before the first point, and after the last point the tracked
invariant gives the class's back (the scratch's named contents forgotten). -/

theorem PhiS_pos (c : Dev nD) (n : ℕ) (h : n ≠ 0) :
    PhiS m c n = iprop(iprop(owns (c : Thread nD τ) scM fullShare (sup m c)) ∗ (∃ r, prngReg c r)) := by
  cases n with
  | zero => exact absurd rfl h
  | succ n => rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 40 := N_0; omega), PhiA_eq]
  iintro ⟨HS, Hg⟩
  isplitl [HS]
  · iexists _; iexact HS
  iexact Hg

set_option backward.isDefEq.respectTransparency.types false in
/-- Every weakly fair execution of @main terminates; every array of the pipeline ends at contents the forgetting
    data allows (an input: its entry contents), every other unscoped buffer as it was. -/
theorem run_forget : θ_run defs (onTc (τ := τ) (main (F := F))) (s₀ m ρ)
    (Pipeline.RDat.FramePost (cfgs 0) (fun c => (dats m 0 c).toRForget fgtOut) (V m)) :=
  Pipeline.RDat.θ_run_frame_track cfgs (0 : Fin 1) launch0 defs₀ Variants.none (fun c => (dats m 0 c).toRForget fgtOut) m ρ main
    (hbody := fun c => (obligation_forget m c).toRForget)
    (hshare := fun c => ((dats m 0 c).toRForget fgtOut).share_full fun _ => rfl)
    (howed := fun _ _ => rfl) (V := V m) (hmain := hmain m Variants.none) (hA := A_eq m) (hin := hin m) (hout := hout m)

/-- The frame claim's post: the three argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun (((dats m 0 c).toRForget fgtOut).ArrAt_in 0 rfl _) _) ((h c).1 0)).trans ((A_eq m c 0).trans (V_main_arg0 m c)),
     (Eq.mp (congrFun (((dats m 0 c).toRForget fgtOut).ArrAt_in 2 rfl _) _) ((h c).1 2)).trans ((A_eq m c 2).trans (V_main_arg1 m c)),
     (Eq.mp (congrFun (((dats m 0 c).toRForget fgtOut).ArrAt_in 1 rfl _) _) ((h c).1 1)).trans ((A_eq m c 1).trans (V_main_arg2 m c))⟩)
    (run_forget m ρ)

end Cert.Kernel.Body

end
-- ==== Proof.Ideal.BodyRun.lean ====
/-
  The kernel body on whole buffers, in its two control cases. The body's one branch holds exactly at the first
  grid point: there it loads the staged x and W, stores their matrix product into the scratch, then loads the
  staged adjacency rows and the scratch and stores their product into the result's buffer. At every later point it
  skips the first product and only reads the scratch. In each case the buffers' final contents are the body's
  stores applied to what they held, each store through a rectangle covering its whole buffer.
-/
import proofs.«141144_g2783138808134_cont_9to1_832_16_alg».proof.Proof.Gen.KernelIdeal.Launch
import proofs.«141144_g2783138808134_cont_9to1_832_16_alg».proof.Proof.Gen.KernelIdeal.Skeleton
import proofs.«141144_g2783138808134_cont_9to1_832_16_alg».proof.Proof.Gen.KernelIdeal.Points
import proofs.«141144_g2783138808134_cont_9to1_832_16_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's one branch

The body computes the product x·W into its scratch only at the first grid point; its condition is a scalar
chain over the grid coordinate, which holds exactly at point 0. -/

/-- The condition of the body's `scf.if`, from the grid coordinate. -/
abbrev cond0 (i : grid0.Coords) : Prop :=
  (Scalar.cmpi .ne (Scalar.extui (Scalar.cmpi .eq (BitVec.ofNat 32 (i 0).val) 0#32)) 0#32) = 1#1

/-- It holds at the first point and at no other. -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- The body at the first point, on whole memrefs: the staged x, W and adjacency rows at their contents, the
    result's buffer and the scratch at anything. It ends with the inputs as they were, the scratch with its
    pieces written and the result's buffer with its pieces written; the pieces are what the run finds. -/
noncomputable def runFirst (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S256x10000 .f32) (harg3 : arg3.IsWhole) (arg4 : Memref sig .tc .vmem S256x128 .f32) (harg4 : arg4.IsWhole)
    (arg5 : Memref sig .tc .vmem S10000x128 .f32) (harg5 : arg5.IsWhole) (hc : cond0 i)
    (x0 : Vec F S10000x128 .f32) (x1 : Vec F S128x128 .f32) (x2 : Vec F S256x10000 .f32) :
    Σ' (L4 : List (View.Piece (Elt F) S256x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f LS)) -∗ K ⟨⟩))
          ⊢ wp frame (wpE (defs₀ (F := F)) Variants.none c none) E (cc0__gcn_kernel i arg1 harg1 arg2 harg2 arg3 harg3 arg4 harg4 arg5 harg5) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%d4, %f4, -, H4⟩, ⟨%d5, %f5, -, H5⟩, Hk⟩
    obtain rfl := harg1.eq_unread hf0; obtain rfl := harg2.eq_unread hf1; obtain rfl := harg3.eq_unread hf2
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]
    · iexists _; iexact H4
    iexists _; iexact H5

set_option maxHeartbeats 1000000 in
/-- The body at a later point, on whole memrefs: the scratch holds what the first point left (`xs`), and is
    only read; the result's buffer ends with its pieces written, everything else as it was. -/
noncomputable def runLater (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S256x10000 .f32) (harg3 : arg3.IsWhole) (arg4 : Memref sig .tc .vmem S256x128 .f32) (harg4 : arg4.IsWhole)
    (arg5 : Memref sig .tc .vmem S10000x128 .f32) (harg5 : arg5.IsWhole) (hc : ¬cond0 i)
    (x0 : Vec F S10000x128 .f32) (x1 : Vec F S128x128 .f32) (x2 : Vec F S256x10000 .f32) (xs : Vec F S10000x128 .f32) :
    { L4 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L4)
                ∗ owns (c : Thread nD τ) arg5 fullShare xs) -∗ K ⟨⟩))
          ⊢ wp frame (wpE (defs₀ (F := F)) Variants.none c none) E (cc0__gcn_kernel i arg1 harg1 arg2 harg2 arg3 harg3 arg4 harg4 arg5 harg5) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%d4, %f4, -, H4⟩, ⟨%f5, %hf5, H5⟩, Hk⟩
    obtain rfl := harg1.eq_unread hf0; obtain rfl := harg2.eq_unread hf1; obtain rfl := harg3.eq_unread hf2
    obtain rfl := harg5.eq_unread hf5
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]
    · iexists _; iexact H4
    iexists _; isplitr; · ipureintro; exact harg5.read_unread _
    iexact H5

end Cert.KernelIdeal.Body

end
-- ==== Proof.Ideal.BodyPieces.lean ====
/-
  What the body's stores read back as. Each store covers its whole buffer, so the buffer afterwards reads the stored
  value whatever it held before; each load reads a whole buffer, so it reads the buffer's contents, and the load of
  the scratch right after its store at the first point reads the stored product.
-/
import proofs.«141144_g2783138808134_cont_9to1_832_16_alg».proof.Proof.Gen.KernelIdeal.Launch
import proofs.«141144_g2783138808134_cont_9to1_832_16_alg».proof.Proof.Gen.KernelIdeal.Skeleton
import proofs.«141144_g2783138808134_cont_9to1_832_16_alg».proof.Proof.Gen.KernelIdeal.Points
import proofs.«141144_g2783138808134_cont_9to1_832_16_alg».proof.Proof.Gen.KernelIdeal.Frame
import proofs.«141144_g2783138808134_cont_9to1_832_16_alg».proof.Proof.Ideal.BodyRun
import proofs.«141144_g2783138808134_cont_9to1_832_16_alg».proof.Proof.LibWholeStore
import proofs.«141144_g2783138808134_cont_9to1_832_16_alg».proof.Proof.LibReadCovWhole
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the runs' pieces read back as

Each store of the body covers its whole buffer, so the buffer afterwards reads the stored value, whatever it
held; each load reads a whole buffer, so it reads the contents (and, of the scratch just stored at the first
point, the stored product). -/

theorem hz2 : (![0, 0] : Fin 2 → Nat) = fun _ => 0 := funext fun a => by fin_cases a <;> rfl

section
variable (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S256x10000 .f32) (harg3 : arg3.IsWhole) (arg4 : Memref sig .tc .vmem S256x128 .f32) (harg4 : arg4.IsWhole)
    (arg5 : Memref sig .tc .vmem S10000x128 .f32) (harg5 : arg5.IsWhole)
    (x0 : Vec F S10000x128 .f32) (x1 : Vec F S128x128 .f32) (x2 : Vec F S256x10000 .f32)

/-- After a later point the result's buffer reads the product of the staged adjacency rows with the scratch. -/
theorem read_later (hc : ¬cond0 i) (xs : Vec F S10000x128 .f32) (f) :
    arg4.view.read (Elt F) (arg4.view.writes (Elt F) f (runLater c i arg1 harg1 arg2 harg2 arg3 harg3 arg4 harg4 arg5 harg5 hc x0 x1 x2 xs).1)
      = k0_pay2 x2 xs := by
  unfold runLater; dsimp only
  rw [Cert.LibWholeStore.read_writes_cons_whole _ _ hz2]
  simp only [View.readAt_eq_ld, harg3.read_unread, harg5.read_unread, View.ld_unit_zero (S := S256x10000) hz2, View.ld_unit_zero (S := S10000x128) hz2]

/-- After the first point the scratch reads the product of the staged x and W. -/
theorem read_first_scratch (hc : cond0 i) (f) :
    arg5.view.read (Elt F) (arg5.view.writes (Elt F) f (runFirst c i arg1 harg1 arg2 harg2 arg3 harg3 arg4 harg4 arg5 harg5 hc x0 x1 x2).2.1)
      = k0_pay1 x0 x1 := by
  unfold runFirst; dsimp only; sl_unfold_words
  rw [Cert.LibWholeStore.read_writes_cons_whole _ _ hz2]
  simp only [View.readAt_eq_ld, harg1.read_unread, harg2.read_unread, View.ld_unit_zero (S := S10000x128) hz2, View.ld_unit_zero (S := S128x128) hz2]

/-- After the first point the result's buffer reads the product of the staged adjacency rows with that. -/
theorem read_first_out (hc : cond0 i) (f) :
    arg4.view.read (Elt F) (arg4.view.writes (Elt F) f (runFirst c i arg1 harg1 arg2 harg2 arg3 harg3 arg4 harg4 arg5 harg5 hc x0 x1 x2).1)
      = k0_pay2 x2 (k0_pay1 x0 x1) := by
  unfold runFirst; dsimp only; sl_unfold_words
  rw [Cert.LibWholeStore.read_writes_cons_whole _ _ hz2, Cert.LibReadCovWhole.readCov_cons_unit_zero _ hz2]
  simp only [View.readAt_eq_ld, harg1.read_unread, harg2.read_unread, harg3.read_unread, View.ld_unit_zero (S := S10000x128) hz2,
    View.ld_unit_zero (S := S128x128) hz2, View.ld_unit_zero (S := S256x10000) hz2]

end

end Cert.KernelIdeal.Body

end
-- ==== Proof.Ideal.BodyData.lean ====
/-
  The pipeline's proof data and the body at one grid point. x and W are staged whole and fetched once; the
  adjacency is staged 256 rows at a time, the last block overhanging the 10000 rows, so its buffer holds rows of
  adj on its first rows and nothing nameable below; the result is written back 256 rows at a time, cut the same way.
  The scratch is tracked: anything before the first point, x · W from then on.
-/
import proofs.«141144_g2783138808134_cont_9to1_832_16_alg».proof.Proof.Gen.KernelIdeal.Launch
import proofs.«141144_g2783138808134_cont_9to1_832_16_alg».proof.Proof.Gen.KernelIdeal.Skeleton
import proofs.«141144_g2783138808134_cont_9to1_832_16_alg».proof.Proof.Gen.KernelIdeal.Points
import proofs.«141144_g2783138808134_cont_9to1_832_16_alg».proof.Proof.Gen.KernelIdeal.Frame
import proofs.«141144_g2783138808134_cont_9to1_832_16_alg».proof.Proof.Ideal.BodyPieces
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The proof data

After the first grid point the scratch holds the product x·W of the two whole-array input blocks, and keeps
it to the end. The adjacency window's buffer holds, at point `t`, rows 256·t … of the adjacency on its rows
inside the array and nothing nameable below them (the last block overhangs the array by 240 rows); the
result's buffer ends each point holding the product of that buffer with the scratch. -/

/-- The first grid point. -/
def t0 : Fin cfg0.N := ⟨0, by rw [show cfg0.N = 40 from N_0]; exact Nat.succ_pos _⟩

/-- The staging memrefs at point `t`, spelled as the pipeline passes them, and the scratch. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x128 .f32 := win0_3.stage (cfg0.slots t 3)
abbrev hs3 (t : Fin cfg0.N) : (ms3 t).IsWhole := hstage0_3 ((cfg0.slots t 3).cast nbuf0_3)
abbrev scM : Memref sig .tc .vmem S10000x128 .f32 := Memref.whole cc0_scratch0

/-- The class invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- x·W: what the scratch holds from the first point on. -/
def sup (c : Dev nD) : Vec F S10000x128 .f32 := k0_pay1 (iblk m c 0 t0) (iblk m c 1 t0)

/-- A filler for buffer rows nothing names. -/
def zf : Vec F S256x10000 .f32 := fun _ => Scalar.ofBits .f32 0#32

/-- The adjacency window's buffer at point `t`: its block's rows inside the array, `d` below them. -/
def adjBuf (c : Dev nD) (t : Fin cfg0.N) (d : Vec F S256x10000 .f32) : Vec F S256x10000 .f32 :=
  win0_2.fill (grid0.coords t) d (iblk m c 2 t)

/-- The invariant before position `n`: the class's before the first point, then the scratch at x·W. -/
def PhiS (c : Dev nD) : ℕ → sProp 𝕄
  | 0 => Pipeline.ΦA spec0 c
  | _ + 1 => iprop(iprop(owns (c : Thread nD τ) scM fullShare (sup m c)) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => adjBuf m c t zf
    | ⟨3, _⟩ => k0_pay2 (adjBuf m c t zf) (sup m c)
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem Phi_succ (c : Dev nD) (t : Fin cfg0.N) :
    (dats m 0 c).Φ t.succ = iprop(iprop(owns (c : Thread nD τ) scM fullShare (sup m c)) ∗ (∃ r, prngReg c r)) := rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = adjBuf m c t zf := by dsimp only [dats]
theorem after_3 (c : Dev nD) (t : Fin cfg0.N) : (dats m 0 c).after 3 t = k0_pay2 (adjBuf m c t zf) (sup m c) := by dsimp only [dats]

/-- The two whole-array inputs' buffers hold their blocks at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- The adjacency window is fetched at every point: its buffer holds the block's rows inside the array. -/
theorem before_2 (c : Dev nD) (t : Fin cfg0.N) (d) : (dats m 0 c).before 2 t d = adjBuf m c t d := by
  rw [Dat.before_fetched _ 2 t (fetch0_2 t)]
  unfold Dat.fetched Dat.blockOf adjBuf iblk; rw [A_eq]; try rfl

/-- The result's window is written back at every point: its buffer arrives holding nothing nameable. -/
theorem before_3 (c : Dev nD) (t : Fin cfg0.N) (d) : (dats m 0 c).before 3 t d = d := by
  refine Dat.before_out_reset _ 3 rfl t ?_ d
  by_cases h : t.val = 0
  · exact .inl h
  · exact .inr ⟨h, flush0_3 _⟩

/-! ## The body at a point -/

set_option maxHeartbeats 1600000 in
/-- The body at point `t`: from the invariant, the two whole inputs' buffers at their blocks, the adjacency
    buffer at its block filled out with any `d2`, and the result's buffer at anything, to the invariant of the
    next position, the inputs' buffers as they were and the result's buffer at the product of the adjacency
    buffer with x·W. At the first point the scratch is stored x·W first; later it holds it already. -/
theorem sound_core (c : Dev nD) (t : Fin cfg0.N) (d2 : Vec F S256x10000 .f32) (K : PUnit → sProp 𝕄) :
    iprop(PhiS m c t.val ∗ owns (c : Thread nD τ) (ms0 t) fullShare (iblk m c 0 t) ∗ owns (c : Thread nD τ) (ms1 t) fullShare (iblk m c 1 t)
        ∗ owns (c : Thread nD τ) (ms2 t) fullShare (adjBuf m c t d2) ∗ (∃ d, owns (c : Thread nD τ) (ms3 t) fullShare d)
        ∗ (iprop(PhiS m c (t.val + 1) ∗ owns (c : Thread nD τ) (ms0 t) fullShare (iblk m c 0 t) ∗ owns (c : Thread nD τ) (ms1 t) fullShare (iblk m c 1 t)
            ∗ owns (c : Thread nD τ) (ms2 t) fullShare (adjBuf m c t d2)
            ∗ owns (c : Thread nD τ) (ms3 t) fullShare (k0_pay2 (adjBuf m c t d2) (sup m c))) -∗ K ⟨⟩))
      ⊢ wp frame (wpE (defs₀ (F := F)) Variants.none c none) Set.univ (bodyAt0 t) K := by
  unfold bodyAt0
  by_cases hz : t.val = 0
  · obtain rfl : t = t0 := Fin.ext hz
    rw [show PhiS m c (t0 : Fin cfg0.N).val = Pipeline.ΦA spec0 c from rfl, PhiA_eq,
      show PhiS m c ((t0 : Fin cfg0.N).val + 1) = iprop(iprop(owns (c : Thread nD τ) scM fullShare (sup m c)) ∗ (∃ r, prngReg c r)) from rfl]
    iintro ⟨⟨HS, Hg⟩, H0, H1, H2, H3, Hk⟩
    iapply ((runFirst c (grid0.coords t0) _ (hs0 t0) _ (hs1 t0) _ (hs2 t0) _ (hs3 t0) scM (Memref.isWhole_whole _) ((hcond0 t0).mpr rfl)
      (iblk m c 0 t0) (iblk m c 1 t0) (adjBuf m c t0 d2)).2.2 Set.univ _)
    isplitl [H0]; · iexact H0
    isplitl [H1]; · iexact H1
    isplitl [H2]; · iexact H2
    isplitl [H3]; · iexact H3
    isplitl [HS]; · iexact HS
    iintro ⟨H0, H1, H2, ⟨%f3, H3⟩, ⟨%f5, H5⟩⟩
    iapply Hk
    isplitl [H5 Hg]
    · isplitl [H5]
      · unfold owns; iexists _; isplitr
        swap; · iexact H5
        ipureintro; exact read_first_scratch c _ _ _ _ _ _ _ _ _ _ _ _ _ _ _ _
      iexact Hg
    isplitl [H0]; · iexact H0
    isplitl [H1]; · iexact H1
    isplitl [H2]; · iexact H2
    unfold owns; iexists _; isplitr
    swap; · iexact H3
    ipureintro; exact read_first_out c _ _ _ _ _ _ _ _ _ _ _ _ _ _ _ _
  · obtain ⟨n, hn⟩ : ∃ n, t.val = n + 1 := Nat.exists_eq_succ_of_ne_zero hz
    rw [hn, show PhiS m c (n + 1) = iprop(iprop(owns (c : Thread nD τ) scM fullShare (sup m c)) ∗ (∃ r, prngReg c r)) from rfl,
      show PhiS m c (n + 1 + 1) = iprop(iprop(owns (c : Thread nD τ) scM fullShare (sup m c)) ∗ (∃ r, prngReg c r)) from rfl]
    iintro ⟨⟨HS, Hg⟩, H0, H1, H2, H3, Hk⟩
    iapply ((runLater c (grid0.coords t) _ (hs0 t) _ (hs1 t) _ (hs2 t) _ (hs3 t) scM (Memref.isWhole_whole _) (fun h => hz ((hcond0 t).mp h))
      (iblk m c 0 t) (iblk m c 1 t) (adjBuf m c t d2) (sup m c)).2 Set.univ _)
    isplitl [H0]; · iexact H0
    isplitl [H1]; · iexact H1
    isplitl [H2]; · iexact H2
    isplitl [H3]; · iexact H3
    isplitl [HS]; · iexact HS
    iintro ⟨H0, H1, H2, ⟨%f3, H3⟩, HS⟩
    iapply Hk
    isplitl [HS Hg]
    · isplitl [HS]; · iexact HS
      iexact Hg
    isplitl [H0]; · iexact H0
    isplitl [H1]; · iexact H1
    isplitl [H2]; · iexact H2
    unfold owns; iexists _; isplitr
    swap; · iexact H3
    ipureintro; exact read_later c _ _ _ _ _ _ _ _ _ _ _ _ _ _ _ _ _

end Cert.KernelIdeal.Body

end
-- ==== Proof.Ideal.BodyForget.lean ====
/-
  The body obligation when the result's window is forgotten: enough for the frame, where nothing reads what the
  body leaves in the result's buffer. The adjacency buffer comes back as it arrived: its kept rows its block, the
  rest whatever the fetch left.
-/
import proofs.«141144_g2783138808134_cont_9to1_832_16_alg».proof.Proof.Gen.KernelIdeal.Launch
import proofs.«141144_g2783138808134_cont_9to1_832_16_alg».proof.Proof.Gen.KernelIdeal.Skeleton
import proofs.«141144_g2783138808134_cont_9to1_832_16_alg».proof.Proof.Gen.KernelIdeal.Points
import proofs.«141144_g2783138808134_cont_9to1_832_16_alg».proof.Proof.Gen.KernelIdeal.Frame
import proofs.«141144_g2783138808134_cont_9to1_832_16_alg».proof.Proof.Ideal.BodyData
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The body obligation with the result's window forgotten

For the frame alone nothing reads what the body leaves in the result's buffer: the window is handed to the body
at anything and taken back at anything. -/

/-- The windows a frame forgets: the result's. -/
abbrev fgtOut : Fin cfg0.W → Bool := fun | 0 => false | 1 => false | 2 => false | 3 => true | ⟨_ + 4, h⟩ => absurd h (Nat.not_lt.2 (Nat.le_add_left _ _))

/-- Refilling the adjacency buffer's kept rows gives the buffer back, whatever filled the rest. -/
theorem fill_cut_adjBuf (c : Dev nD) (t : Fin cfg0.N) (d : Vec F S256x10000 .f32) :
    win0_2.fill (grid0.coords t) d (win0_2.cut (grid0.coords t) (adjBuf m c t zf)) = adjBuf m c t d := by
  unfold adjBuf; rw [Window.cut_fill]

set_option maxHeartbeats 1600000 in
theorem obligation_forget (c : Dev nD) :
    BodyObligationLoose (dats (F := F) m 0 c) (defs₀ (F := F)) Variants.none () Set.univ fgtOut := fun t => by
  rw [bigSep_W0, bigSep_W0]
  simp only
  rw [show (dats m 0 c).owesAt () t.succ = (dats m 0 c).owesAt () t.castSucc from rfl, Phi_castSucc,
    show (dats m 0 c).Φ t.succ = PhiS m c (t.val + 1) from rfl]
  iintro ⟨HΦ, Ho, ⟨%d0, H0⟩, ⟨%d1, H1⟩, ⟨%d2, H2⟩, H3⟩
  rw [before_0 m c t d0, before_1 m c t d1, before_2 m c t d2]
  iapply (sound_core m c t d2 _)
  isplitl [HΦ]; · iexact HΦ
  isplitl [H0]; · iexact H0
  isplitl [H1]; · iexact H1
  isplitl [H2]; · iexact H2
  isplitl [H3]; · iexact H3
  iintro ⟨HΦ, H0, H1, H2, H3⟩
  isplitl [HΦ]; · iexact HΦ
  isplitl [Ho]; · iexact Ho
  isplitl [H0]; · rw [after_0]; iexact H0
  isplitl [H1]; · rw [after_1]; iexact H1
  isplitl [H2]
  · iexists d2; rw [after_2]
    rw [show (win0 2).fill (grid0.coords t) d2 ((win0 2).cut (grid0.coords t) (adjBuf m c t zf)) = adjBuf m c t d2 from
      fill_cut_adjBuf m c t d2]
    iexact H2
  · iexists _; iexact H3

end Cert.KernelIdeal.Body

end
-- ==== Proof.Ideal.BodyFrame.lean ====
/-
  The frame: the launch over the forgetting proof data, entered from the class invariant (the scratch at anything)
  and left with the scratch's contents forgotten again; the three argument arrays are staged inputs, which the
  pipeline never writes, so they end at their entry contents.
-/
import proofs.«141144_g2783138808134_cont_9to1_832_16_alg».proof.Proof.Gen.KernelIdeal.Launch
import proofs.«141144_g2783138808134_cont_9to1_832_16_alg».proof.Proof.Gen.KernelIdeal.Skeleton
import proofs.«141144_g2783138808134_cont_9to1_832_16_alg».proof.Proof.Gen.KernelIdeal.Points
import proofs.«141144_g2783138808134_cont_9to1_832_16_alg».proof.Proof.Gen.KernelIdeal.Frame
import proofs.«141144_g2783138808134_cont_9to1_832_16_alg».proof.Proof.Ideal.BodyForget
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame

The launch: the class invariant is the tracked one before the first point, and after the last point the tracked
invariant gives the class's back (the scratch's named contents forgotten). -/

theorem PhiS_pos (c : Dev nD) (n : ℕ) (h : n ≠ 0) :
    PhiS m c n = iprop(iprop(owns (c : Thread nD τ) scM fullShare (sup m c)) ∗ (∃ r, prngReg c r)) := by
  cases n with
  | zero => exact absurd rfl h
  | succ n => rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 40 := N_0; omega), PhiA_eq]
  iintro ⟨HS, Hg⟩
  isplitl [HS]
  · iexists _; iexact HS
  iexact Hg

set_option backward.isDefEq.respectTransparency.types false in
/-- Every weakly fair execution of @main terminates; every array of the pipeline ends at contents the forgetting
    data allows (an input: its entry contents), every other unscoped buffer as it was. -/
theorem run_forget : θ_run defs (onTc (τ := τ) (main (F := F))) (s₀ m ρ)
    (Pipeline.RDat.FramePost (cfgs 0) (fun c => (dats m 0 c).toRForget fgtOut) (V m)) :=
  Pipeline.RDat.θ_run_frame_track cfgs (0 : Fin 1) launch0 defs₀ Variants.none (fun c => (dats m 0 c).toRForget fgtOut) m ρ main
    (hbody := fun c => (obligation_forget m c).toRForget)
    (hshare := fun c => ((dats m 0 c).toRForget fgtOut).share_full fun _ => rfl)
    (howed := fun _ _ => rfl) (V := V m) (hmain := hmain m Variants.none) (hA := A_eq m) (hin := hin m) (hout := hout m)

/-- The frame claim's post: the three argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun (((dats m 0 c).toRForget fgtOut).ArrAt_in 0 rfl _) _) ((h c).1 0)).trans ((A_eq m c 0).trans (V_main_arg0 m c)),
     (Eq.mp (congrFun (((dats m 0 c).toRForget fgtOut).ArrAt_in 2 rfl _) _) ((h c).1 2)).trans ((A_eq m c 2).trans (V_main_arg1 m c)),
     (Eq.mp (congrFun (((dats m 0 c).toRForget fgtOut).ArrAt_in 1 rfl _) _) ((h c).1 1)).trans ((A_eq m c 1).trans (V_main_arg2 m c))⟩)
    (run_forget m ρ)

end Cert.KernelIdeal.Body

end
-- ==== Proof.LibPlainMatmul.lean ====
/-
  A matrix product read at an index given by coordinates, at the ideal values, for any extents and element formats:
  for the plain dimension numbers — an `M × K` left operand and a `K × N` right operand contracted over the left's
  columns and the right's rows, no batch axis — the product accumulated into zero is, at `(i, j)`,
  the sum over `k` of `l (i, k) · r (k, j)`. The sum over the contraction shape's one-coordinate indices is
  re-indexed over `Fin K`.
-/
import Idealize.ShloMosaic.Lib.ValueIdx
import Idealize.ShloMosaic.PureOps.Ideal.Laws

namespace Cert.LibPlainMatmul

open Idealize.ShloMosaic Idealize.ShloMosaic.ValueIdx

/-- The product of an `M × K` and a `K × N` matrix into a zero accumulator, read at `(i, j)`. -/
theorem matmul_zero_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    FloatOps.matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        split
        · exact absurd ‹_› List.not_mem_nil
        · split
          · rfl
          · exact absurd (List.mem_singleton.mpr rfl) ‹_›
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        split
        · exact absurd ‹_› List.not_mem_nil
        · split
          · rfl
          · exact absurd (List.mem_singleton.mpr rfl) ‹_›)
  rw [el, er]

end Cert.LibPlainMatmul
-- ==== Proof.Spec.lean ====
/-
  The specification: a graph-convolution layer's result adj · (x · W), entry by entry on the extended reals.
  Entry (i, j) is the sum over the 10000 nodes k of adj(i, k) times the k-th row of x · W at column j, that row
  being the sum over the 128 input channels l of x(k, l) · W(l, j). Both programs compute it with this grouping,
  so no law of the extended reals is needed to join them.
-/
import Idealize.ShloMosaic.Lib.ValueIdx

noncomputable section

namespace Cert.GcnSpec

open Idealize.ShloMosaic Idealize.ShloMosaic.ValueIdx

/-- Row k, column j of x · W. -/
def support (x : (⟨2, ![10000, 128]⟩ : Shape).Idx → EReal) (w : (⟨2, ![128, 128]⟩ : Shape).Idx → EReal)
    (k : Fin 10000) (j : Fin 128) : EReal := ∑ l : Fin 128, x (ix2 k l) * w (ix2 l j)

/-- adj · (x · W) at an index. -/
def gcn (x : (⟨2, ![10000, 128]⟩ : Shape).Idx → EReal) (adj : (⟨2, ![10000, 10000]⟩ : Shape).Idx → EReal)
    (w : (⟨2, ![128, 128]⟩ : Shape).Idx → EReal) : (⟨2, ![10000, 128]⟩ : Shape).Idx → EReal :=
  fun i => ∑ k : Fin 10000, adj (ix2 (i 0) k) * support x w k (i 1)

end Cert.GcnSpec

end
-- ==== Proof.Ideal.PayValue.lean ====
/-
  The kernel body's two payloads read at an index, at the ideal values: the first point's scratch value is the
  matrix product of the staged x and W blocks, and every point's result block is the matrix product of the staged
  adjacency rows with the scratch. The conversions to bf16 before the second product are the identity there.
-/
import proofs.«141144_g2783138808134_cont_9to1_832_16_alg».proof.Proof.Gen.KernelIdeal.Skeleton
import proofs.«141144_g2783138808134_cont_9to1_832_16_alg».proof.Proof.LibPlainMatmul
import proofs.«141144_g2783138808134_cont_9to1_832_16_alg».proof.Proof.Spec
import Idealize.ShloMosaic.Lib.Pipeline.Value

noncomputable section

namespace Cert.KernelIdeal.PayValue

open Cert.KernelIdeal Cert.KernelIdeal.Gen Idealize.ShloMosaic Idealize.ShloMosaic.ValueIdx

/-- The scratch value at (k, n): the sum over the input channels of x(k, l) · W(l, n). -/
theorem pay1_apply (X0 : Vec Ideal S10000x128 .f32) (X1 : Vec Ideal S128x128 .f32) (k : Fin 10000) (n : Fin 128) :
    k0_pay1 (F := Ideal) X0 X1 (ix2 k n) = ∑ l : Fin 128, X0 (ix2 k l) * X1 (ix2 l n) := by
  unfold k0_pay1
  rw [shapeCast_self]
  exact Cert.LibPlainMatmul.matmul_zero_apply dot_S10000x128_S128x128_S10000x128_1_0_0_1_n_n rfl rfl rfl rfl rfl rfl none X0 X1 k n

/-- The result block at (p, n): the sum over the nodes of the staged adjacency row p times the scratch column n. -/
theorem pay2_apply (X2 : Vec Ideal S256x10000 .f32) (S : Vec Ideal S10000x128 .f32) (p : Fin 256) (n : Fin 128) :
    k0_pay2 (F := Ideal) X2 S (ix2 p n) = ∑ k : Fin 10000, X2 (ix2 p k) * S (ix2 k n) := by
  unfold k0_pay2
  exact Cert.LibPlainMatmul.matmul_zero_apply dot_S256x10000_S10000x128_S256x128_1_0_0_1_n_n rfl rfl rfl rfl rfl rfl none X2 S p n

end Cert.KernelIdeal.PayValue

end
-- ==== Proof.Ideal.BlockValue.lean ====
/-
  What the result array holds after the run, at the ideal values. At point t the adjacency window's buffer
  holds rows 256·t … of adj on its rows inside the array (all 256, or the last block's 16), and the scratch holds
  x · W; the body stores their product, so row p of what point t writes back is row 256·t + p of adj · (x · W).
  A row of that product depends on the same row of the left factor only, so the buffer rows below the array's end
  never reach a row that is written back. The forty blocks' rows cover the 10000 rows of the result.
-/
import proofs.«141144_g2783138808134_cont_9to1_832_16_alg».proof.Proof.Ideal.BodyData
import proofs.«141144_g2783138808134_cont_9to1_832_16_alg».proof.Proof.Ideal.PayValue
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The printed index maps and cuts, decided over the grid: the whole-array windows sit at block (0, 0); the
    adjacency and result windows at block (t, 0), cut alike on the rows and not at all on the columns, the rows
    kept ending inside the array. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_2.xsize (grid0.coords t) (0 : Fin 2) = win0_3.xsize (grid0.coords t) (0 : Fin 2)
    ∧ win0_2.xsize (grid0.coords t) (1 : Fin 2) = 10000
    ∧ win0_3.xsize (grid0.coords t) (1 : Fin 2) = 128
    ∧ win0_3.xsize (grid0.coords t) (0 : Fin 2) ≤ 256
    ∧ t.val * 256 + win0_3.xsize (grid0.coords t) (0 : Fin 2) ≤ 10000
    ∧ ((t.val * 256 + 256 ≤ 10000 ∧ win0_3.xsize (grid0.coords t) (0 : Fin 2) = 256)
        ∨ (10000 < t.val * 256 + 256 ∧ t.val * 256 + win0_3.xsize (grid0.coords t) (0 : Fin 2) = 10000)) :=
  (by decide +kernel : ∀ t : Fin grid0.N, _)

/-- The whole-array windows' blocks are the arrays. -/
theorem iblk0_apply (c : Dev nD) (t : Fin cfg0.N) (y : S10000x128.Idx) : iblk m c 0 t y = V m c main_arg0 y := by
  obtain ⟨e00, e01, -⟩ := idx_facts t
  show V m c main_arg0 (((cfg0.win 0).blk t).view.emb y) = _
  refine congrArg _ (funext fun a => Fin.ext ?_)
  match a with
  | ⟨0, _⟩ => show win0_0.index t (0 : Fin 2) * 10000 + 1 * (y 0).val = (y 0).val; rw [e00]; omega
  | ⟨1, _⟩ => show win0_0.index t (1 : Fin 2) * 128 + 1 * (y 1).val = (y 1).val; rw [e01]; omega

theorem iblk1_apply (c : Dev nD) (t : Fin cfg0.N) (y : S128x128.Idx) : iblk m c 1 t y = V m c main_arg2 y := by
  obtain ⟨-, -, e10, e11, -⟩ := idx_facts t
  show V m c main_arg2 (((cfg0.win 1).blk t).view.emb y) = _
  refine congrArg _ (funext fun a => Fin.ext ?_)
  match a with
  | ⟨0, _⟩ => show win0_1.index t (0 : Fin 2) * 128 + 1 * (y 0).val = (y 0).val; rw [e10]; omega
  | ⟨1, _⟩ => show win0_1.index t (1 : Fin 2) * 128 + 1 * (y 1).val = (y 1).val; rw [e11]; omega

/-- The scratch's value from the first point on is x · W, entry by entry. -/
theorem sup_apply (c : Dev nD) (k : Fin 10000) (n : Fin 128) :
    sup m c (ix2 k n) = Cert.GcnSpec.support (V m c main_arg0) (V m c main_arg2) k n := by
  unfold sup Cert.GcnSpec.support
  rw [Cert.KernelIdeal.PayValue.pay1_apply]
  refine Finset.sum_congr rfl fun l _ => ?_
  rw [iblk0_apply, iblk1_apply]

/-- A kept row p of the adjacency buffer at point t is row 256·t + p of adj, whatever fills the rows below. -/
theorem adjBuf_apply (c : Dev nD) (t : Fin cfg0.N) (d : Vec Ideal S256x10000 .f32) (p : Fin 256) (k : Fin 10000)
    (hp : p.val < win0_3.xsize (grid0.coords t) (0 : Fin 2)) (r : Fin 10000) (hr : r.val = t.val * 256 + p.val) :
    adjBuf m c t d (ix2 p k) = V m c main_arg1 (ix2 r k) := by
  obtain ⟨-, -, -, -, e20, e21, -, -, ex0, ex1, -⟩ := idx_facts t
  have hmv : win0_2.moved (grid0.coords t) (ix2 p k) = true := (win0_2.moved_iff _ _).mpr fun a => by
    match a with
    | ⟨0, _⟩ => show p.val < win0_2.xsize (grid0.coords t) (0 : Fin 2); rw [ex0]; exact hp
    | ⟨1, _⟩ => show k.val < win0_2.xsize (grid0.coords t) (1 : Fin 2); rw [ex1]; exact k.isLt
  unfold adjBuf Window.fill
  rw [dif_pos hmv]
  show V m c main_arg1 (((cfg0.win 2).blk t).view.emb _) = _
  refine congrArg _ (funext fun a => Fin.ext ?_)
  match a with
  | ⟨0, _⟩ => show win0_2.index t (0 : Fin 2) * 256 + 1 * p.val = r.val; rw [e20, hr]; omega
  | ⟨1, _⟩ => show win0_2.index t (1 : Fin 2) * 10000 + 1 * k.val = k.val; rw [e21]; omega

/-- A kept row of the body's product at point t: the matching row of adj · (x · W). -/
theorem out_apply (c : Dev nD) (t : Fin cfg0.N) (d : Vec Ideal S256x10000 .f32) (p : Fin 256) (n : Fin 128)
    (hp : p.val < win0_3.xsize (grid0.coords t) (0 : Fin 2)) (r : Fin 10000) (hr : r.val = t.val * 256 + p.val) :
    k0_pay2 (adjBuf m c t d) (sup m c) (ix2 p n)
      = Cert.GcnSpec.gcn (V m c main_arg0) (V m c main_arg1) (V m c main_arg2) (ix2 r n) := by
  rw [Cert.KernelIdeal.PayValue.pay2_apply]
  unfold Cert.GcnSpec.gcn
  refine Finset.sum_congr rfl fun k _ => ?_
  rw [adjBuf_apply m c t d p k hp r hr, sup_apply]

end Cert.KernelIdeal.Body

end
-- ==== Proof.Ideal.Final.lean ====
/-
  The result array after the run is adj · (x · W): each grid point writes back the kept rows of its block of
  that product, the forty blocks' kept rows are all 10000 rows, and the frame run of the exact proof data names
  the array after the write-backs. The exact body obligation asks, of the result's buffer, only its kept rows; those
  do not depend on what fills the adjacency buffer below the array's end.
-/
import proofs.«141144_g2783138808134_cont_9to1_832_16_alg».proof.Proof.Ideal.BlockValue
import proofs.«141144_g2783138808134_cont_9to1_832_16_alg».proof.Proof.Ideal.BodyFrame
import Idealize.ShloMosaic.Lib.Pipeline.Frame

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- A kept index of the result's block at point t, by coordinates: row p of the block is row 256·t + p of the array. -/
theorem kept_coords (t : Fin cfg0.N) (j : (win0_3.xblock (grid0.coords t)).Idx) :
    ∃ (p : Fin 256) (n : Fin 128) (r : Fin 10000), p.val < win0_3.xsize (grid0.coords t) (0 : Fin 2) ∧ r.val = t.val * 256 + p.val
      ∧ win0_3.xinj (grid0.coords t) j = ix2 p n ∧ ((cfg0.win 3).blk t).view.emb j = ix2 r n := by
  obtain ⟨-, -, -, -, -, -, e30, e31, -, -, ex31, hle, hin, -⟩ := idx_facts t
  have hj0 : (j 0).val < win0_3.xsize (grid0.coords t) (0 : Fin 2) := (j 0).isLt
  have hj1 : (j 1).val < win0_3.xsize (grid0.coords t) (1 : Fin 2) := (j 1).isLt
  rw [ex31] at hj1
  refine ⟨⟨(j 0).val, by omega⟩, ⟨(j 1).val, hj1⟩, ⟨t.val * 256 + (j 0).val, by omega⟩, hj0, rfl, ?_, ?_⟩
  · exact funext fun a => Fin.ext (by match a with | ⟨0, _⟩ => rfl | ⟨1, _⟩ => rfl)
  · refine funext fun a => Fin.ext ?_
    match a with
    | ⟨0, _⟩ => show win0_3.index t (0 : Fin 2) * 256 + 1 * (j 0).val = t.val * 256 + (j 0).val; rw [e30]; omega
    | ⟨1, _⟩ => show win0_3.index t (1 : Fin 2) * 128 + 1 * (j 1).val = (j 1).val; rw [e31]; omega

/-- What point t writes back is its block of adj · (x · W). -/
theorem flushed_eq (c : Dev nD) (t : Fin cfg0.N) :
    (dats m 0 c).flushed 3 t = ((cfg0.win 3).blk t).view.read (Elt Ideal)
      (Cert.GcnSpec.gcn (V m c main_arg0) (V m c main_arg1) (V m c main_arg2)) := by
  show (cfg0.win 3).cut (grid0.coords t) ((dats m 0 c).after 3 t) = _
  rw [after_3]
  funext j
  obtain ⟨p, n, r, hp, hr, e1, e2⟩ := kept_coords t j
  show k0_pay2 (adjBuf m c t zf) (sup m c) (win0_3.xinj (grid0.coords t) j)
    = Cert.GcnSpec.gcn (V m c main_arg0) (V m c main_arg1) (V m c main_arg2) (((cfg0.win 3).blk t).view.emb j)
  rw [e1, e2]
  exact out_apply m c t zf p n hp r hr

/-- The kept rows of the body's product do not depend on what fills the adjacency buffer below the array's end. -/
theorem cut_out_indep (c : Dev nD) (t : Fin cfg0.N) (d : Vec Ideal S256x10000 .f32) :
    win0_3.cut (grid0.coords t) (k0_pay2 (adjBuf m c t d) (sup m c)) = win0_3.cut (grid0.coords t) (k0_pay2 (adjBuf m c t zf) (sup m c)) := by
  funext j
  obtain ⟨p, n, r, hp, hr, e1, -⟩ := kept_coords t j
  show k0_pay2 (adjBuf m c t d) (sup m c) (win0_3.xinj (grid0.coords t) j) = k0_pay2 (adjBuf m c t zf) (sup m c) (win0_3.xinj (grid0.coords t) j)
  rw [e1, out_apply m c t d p n hp r hr, out_apply m c t zf p n hp r hr]

/-- An index of the result array is in point t's block iff on each axis it is among the block's kept coordinates. -/
theorem mem_blk3 (t : Fin cfg0.N) (i : S10000x128.Idx) :
    i ∈ ((cfg0.win 3).blk t).view.set ↔ ∀ a : Fin 2, win0_3.index t a * S256x128.size a ≤ (i a).val
      ∧ (i a).val < win0_3.index t a * S256x128.size a + win0_3.xsize (grid0.coords t) a := by
  show i ∈ ((View.whole main_v0).slice (win0_3.rect t)).set ↔ _
  rw [View.set_slice_whole, Rect.mem_set_unit]
  exact Iff.rfl

/-- Every row of the result lies in the kept rows of the block at point (row / 256). -/
theorem cover (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 40 := N_0
  have ht : (i 0).val / 256 < cfg0.N := by rw [hN]; omega
  refine ⟨⟨(i 0).val / 256, ht⟩, flush0_3 _, ?_⟩
  rw [mem_blk3]
  obtain ⟨-, -, -, -, -, -, e30, e31, -, -, ex31, hle, hin, hcase⟩ := idx_facts ⟨(i 0).val / 256, ht⟩
  intro a
  match a with
  | ⟨0, _⟩ =>
    show win0_3.index ⟨(i 0).val / 256, ht⟩ (0 : Fin 2) * 256 ≤ (i 0).val
      ∧ (i 0).val < win0_3.index ⟨(i 0).val / 256, ht⟩ (0 : Fin 2) * 256 + win0_3.xsize (grid0.coords ⟨(i 0).val / 256, ht⟩) (0 : Fin 2)
    rw [e30]; dsimp only at hcase hle hin ⊢; omega
  | ⟨1, _⟩ =>
    show win0_3.index ⟨(i 0).val / 256, ht⟩ (1 : Fin 2) * 128 ≤ (i 1).val
      ∧ (i 1).val < win0_3.index ⟨(i 0).val / 256, ht⟩ (1 : Fin 2) * 128 + win0_3.xsize (grid0.coords ⟨(i 0).val / 256, ht⟩) (1 : Fin 2)
    rw [e31, ex31]; omega

/-- The result array after the write-backs is adj · (x · W). -/
theorem final (c : Dev nD) :
    (dats m 0 c).arrAt 3 cfg0.N = Cert.GcnSpec.gcn (V m c main_arg0) (V m c main_arg1) (V m c main_arg2) :=
  (dats m 0 c).arrAt_eq_of_cover 3 _ (fun t _ => flushed_eq m c t) cover

/-! ## The exact body obligation and the run -/

set_option maxHeartbeats 1600000 in
theorem obligation_exact (c : Dev nD) :
    BodyObligationLoose (dats (F := Ideal) m 0 c) (defs₀ (F := Ideal)) Variants.none () Set.univ := fun t => by
  rw [bigSep_W0, bigSep_W0]
  simp only
  rw [show (dats m 0 c).owesAt () t.succ = (dats m 0 c).owesAt () t.castSucc from rfl, Phi_castSucc,
    show (dats m 0 c).Φ t.succ = PhiS m c (t.val + 1) from rfl]
  iintro ⟨HΦ, Ho, ⟨%d0, H0⟩, ⟨%d1, H1⟩, ⟨%d2, H2⟩, ⟨%d3, H3⟩⟩
  rw [before_0 m c t d0, before_1 m c t d1, before_2 m c t d2, before_3 m c t d3]
  iapply (sound_core m c t d2 _)
  isplitl [HΦ]; · iexact HΦ
  isplitl [H0]; · iexact H0
  isplitl [H1]; · iexact H1
  isplitl [H2]; · iexact H2
  isplitl [H3]; · iexists d3; iexact H3
  iintro ⟨HΦ, H0, H1, H2, H3⟩
  isplitl [HΦ]; · iexact HΦ
  isplitl [Ho]; · iexact Ho
  isplitl [H0]; · rw [after_0]; iexact H0
  isplitl [H1]; · rw [after_1]; iexact H1
  isplitl [H2]
  · iexists d2; rw [after_2]
    rw [show (win0 2).fill (grid0.coords t) d2 ((win0 2).cut (grid0.coords t) (adjBuf m c t zf)) = adjBuf m c t d2 from
      fill_cut_adjBuf m c t d2]
    iexact H2
  · iexists (k0_pay2 (adjBuf m c t d2) (sup m c)); rw [after_3]
    rw [show (win0 3).fill (grid0.coords t) (k0_pay2 (adjBuf m c t d2) (sup m c))
        ((win0 3).cut (grid0.coords t) (k0_pay2 (adjBuf m c t zf) (sup m c))) = k0_pay2 (adjBuf m c t d2) (sup m c) from by
      rw [← cut_out_indep m c t d2]; exact Window.fill_cut _ _ _]
    iexact H3

set_option backward.isDefEq.respectTransparency.types false in
/-- Every weakly fair execution of @main terminates with every array of the pipeline at what the exact proof data
    computes after the write-backs. -/
theorem run_exact : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := obligation_exact m) (hshare := fun c => (dats m 0 c).share_full fun _ => rfl) (howed := fun _ _ => rfl)
    (V := V m) (hmain := hmain m Variants.none) (hA := A_eq m) (hin := hin m) (hout := hout m)

/-- The run with the result named: adj · (x · W) of the launch contents; the arguments as they were. -/
theorem run_value : θ_run defs (onTc (τ := τ) (main (F := Ideal))) ⟨m, fun _ => 0, ρ⟩ (fun r => ∀ c : Dev nD,
      r.2.mem ((c.tc : Thread nD τ).loc main_v0) = Cert.GcnSpec.gcn (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans (final m c),
     ((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).1 1).trans (((dats m 0 c).arrAt_in 1 rfl _).trans ((A_eq m c 1).trans (V_main_arg2 m c)))⟩)
    (run_exact m ρ)

end Cert.KernelIdeal.Body

end
-- ==== Proof.RefValue.lean ====
/-
  The reference's result term is the specification: its two host matrix products, read at an index through the
  generated stage lemmas, are adj · (x · W) entry by entry.
-/
import proofs.«141144_g2783138808134_cont_9to1_832_16_alg».proof.Proof.Gen.ReferenceIdeal.Read
import proofs.«141144_g2783138808134_cont_9to1_832_16_alg».proof.Proof.Spec

noncomputable section

namespace Cert.ReferenceIdeal.RefValue

open Cert.ReferenceIdeal Cert.ReferenceIdeal.Gen Cert.ReferenceIdeal.Read Idealize.ShloMosaic Idealize.ShloMosaic.ValueIdx

theorem lidx1_eq (i : S10000x128.Idx) (k : Fin 10000) : lidx_main_v1 i k = ix2 (i 0) k :=
  funext fun a => Fin.ext (by match a with | ⟨0, _⟩ => rfl | ⟨1, _⟩ => rfl)
theorem lidx0_eq (i : S10000x128.Idx) (k : Fin 10000) (l : Fin 128) : lidx_main_v0 (ridx_main_v1 i k) l = ix2 k l :=
  funext fun a => Fin.ext (by match a with | ⟨0, _⟩ => rfl | ⟨1, _⟩ => rfl)
theorem ridx0_eq (i : S10000x128.Idx) (k : Fin 10000) (l : Fin 128) : ridx_main_v0 (ridx_main_v1 i k) l = ix2 l (i 1) :=
  funext fun a => Fin.ext (by match a with | ⟨0, _⟩ => rfl | ⟨1, _⟩ => rfl)

/-- The reference computes adj · (x · W). -/
theorem ref_eq (x : (⟨S10000x128, .f32⟩ : BufTy).Contents (Elt Ideal)) (adj : (⟨S10000x10000, .f32⟩ : BufTy).Contents (Elt Ideal))
    (w : (⟨S128x128, .f32⟩ : BufTy).Contents (Elt Ideal)) :
    val_main_v1 (F := Ideal) x adj w = Cert.GcnSpec.gcn x adj w := by
  funext i
  rw [val_main_v1_apply]
  unfold Cert.GcnSpec.gcn Cert.GcnSpec.support
  refine Finset.sum_congr rfl fun k _ => ?_
  rw [val_main_v0_apply, lidx1_eq]
  refine congrArg _ (Finset.sum_congr rfl fun l _ => ?_)
  rw [lidx0_eq, ridx0_eq]
  rfl

end Cert.ReferenceIdeal.RefValue

end
-- ==== Proof.lean ====
/-
  A graph-convolution layer out = adj · (x · W) over 10000 nodes with 128 input and 128 output channels, as one
  pipelined kernel against two plain matrix products.

  The kernel walks forty row blocks of adj, 256 rows each; the last block overhangs the 10000 rows by 240, so its
  fetch fills only the buffer's first 16 rows with rows of adj and its write-back writes only those 16 rows of the
  result. At the first grid point the body multiplies the whole x by the whole W into a scratch buffer that it
  keeps to the end; at every point it multiplies the staged rows of adj by the scratch. At the ideal values the two
  conversions to bf16 are the identity and both matrix products are plain sums, so row p of block t of the result
  is the sum over the nodes k of adj(256·t + p, k) times the sum over the channels l of x(k, l) · W(l, j): the
  reference's two products, entry by entry and with the same grouping, so no law of the extended reals (and no
  finiteness of the inputs) is needed. A row of a matrix product depends on the same row of the left factor only:
  the buffer rows below the array's end never reach a row that is written back.

  The three frames: the two kernel programs run to the end, fault nowhere and leave x, adj and W as they were (the
  scratch tracked at x · W from the first point on; for the frame alone nothing is said of the result's buffer);
  the reference's frame is its run with the result dropped. The idealization rewrote no operation, so the
  preservation claim is trivial. The value claim pairs the kernel's run, its result array named adj · (x · W), with
  the reference's run read at an index.
-/
import proofs.«141144_g2783138808134_cont_9to1_832_16_alg».proof.Defs
import proofs.«141144_g2783138808134_cont_9to1_832_16_alg».proof.Proof.Gen.Kernel
import proofs.«141144_g2783138808134_cont_9to1_832_16_alg».proof.Proof.Gen.KernelIdeal
import proofs.«141144_g2783138808134_cont_9to1_832_16_alg».proof.Proof.Gen.ReferenceIdeal
import proofs.«141144_g2783138808134_cont_9to1_832_16_alg».proof.Proof.Gen.ReferenceIdeal.Run
import proofs.«141144_g2783138808134_cont_9to1_832_16_alg».proof.Proof.Gen.ReferenceIdeal.Read
import proofs.«141144_g2783138808134_cont_9to1_832_16_alg».proof.Proof.Gen.Pre_finite_inputs
import proofs.«141144_g2783138808134_cont_9to1_832_16_alg».proof.Proof.Bits.BodyFrame
import proofs.«141144_g2783138808134_cont_9to1_832_16_alg».proof.Proof.Ideal.BodyFrame
import proofs.«141144_g2783138808134_cont_9to1_832_16_alg».proof.Proof.Ideal.Final
import proofs.«141144_g2783138808134_cont_9to1_832_16_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Body.frame (F := Bits) m ρ

/-- So does the kernel read at the ideal values. -/
theorem frame_ki : Cert.frame_KernelIdeal := fun m ρ _ => Cert.KernelIdeal.Body.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with adj · (x · W) of the arguments they agree on. -/
theorem algebraic : Cert.algebraic_KernelIdeal_ReferenceIdeal := by
  intro m ρ m' ρ' _ hagree
  refine ⟨_, Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
